-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1x1024 .f32) (main_arg5 : FVec F S1024x1024 .f32) (main_arg6 : FVec F S1024 .f32) (main_arg7 : FVec F S1024x1024 .f32) (main_arg8 : FVec F S1024 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x4096x1024 .f32) (main_arg1 : FVec F S8x4096x1024 .f32) (main_arg2 : FVec F S1024x16 .f32) (main_arg3 : FVec F S1024x16 .f32) (main_arg4 : FVec F S1x1024 .f32) (main_arg5 : FVec F S1024x1024 .f32) (main_arg6 : FVec F S1024 .f32) (main_arg7 : FVec F S1024x1024 .f32) (main_arg8 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_arg8 main_v13 main_v16
-- ==== Kernel.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S32768x1024 : Shape := ⟨2, ![32768, 1024]⟩
abbrev S16x1024 : Shape := ⟨2, ![16, 1024]⟩
abbrev S1024x2048 : Shape := ⟨2, ![1024, 2048]⟩
abbrev S2048 : Shape := ⟨1, ![2048]⟩
abbrev S1x2048 : Shape := ⟨2, ![1, 2048]⟩
abbrev S512x1024 : Shape := ⟨2, ![512, 1024]⟩
abbrev S512x16 : Shape := ⟨2, ![512, 16]⟩
abbrev S512 : Shape := ⟨1, ![512]⟩
abbrev S512x1 : Shape := ⟨2, ![512, 1]⟩
abbrev S512x2048 : Shape := ⟨2, ![512, 2048]⟩

abbrev nBuf : Space → Nat
  | .hbm => 22
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x16, .f32⟩
  | .hbm, ⟨3, _⟩ => ⟨S1024x16, .f32⟩
  | .hbm, ⟨4, _⟩ => ⟨S1x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S1024x16, .bf16⟩
  | .hbm, ⟨12, _⟩ => ⟨S16x1024, .f32⟩
  | .hbm, ⟨13, _⟩ => ⟨S16x1024, .bf16⟩
  | .hbm, ⟨14, _⟩ => ⟨S1024x1024, .f32⟩
  | .hbm, ⟨15, _⟩ => ⟨S1024x1024, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S1x2048, .f32⟩
  | .hbm, ⟨20, _⟩ => ⟨S32768x1024, .f32⟩
  | .hbm, ⟨21, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x16, .bf16⟩
  | .local _ .vmem, ⟨5, _⟩ => ⟨S16x1024, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .f32⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  bitsLt_bf16_f32 : FTy.bits .bf16 < FTy.bits .f32
  transposes_S1024x16_S16x1024_1_0 : S1024x16.Transposes [1, 0] S16x1024
  transposes_S1024x1024_S1024x1024_1_0 : S1024x1024.Transposes [1, 0] S1024x1024
  concatenates_S1024x1024_S1024x1024_S1024x2048_d1 : Shape.Concatenates [S1024x1024, S1024x1024] S1024x2048 1
  concatenates_S1024_S1024_S2048_d0 : Shape.Concatenates [S1024, S1024] S2048 0
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  reduces_S512x16_S512 : S512x16.Reduces [1] S512
  shapeCasts_S512_S512x1 : S512.ShapeCasts S512x1
  broadcasts_S512x1_S512x16 : S512x1.Broadcasts S512x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  broadcasts_S512x1_S512x1024 : S512x1.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  natLt_1_32 : 1 < 32
  shapeCasts_S32768x1024_S8x4096x1024 : S32768x1024.ShapeCasts S8x4096x1024
  dot_S512x1024_S1024x16_S512x16_1_0_0_1_n_n_wf : DotDims.WF S512x1024 S1024x16 S512x16 [1] [0] [0] [1] [] []
  dot_S512x16_S16x1024_S512x1024_1_0_0_1_n_n_wf : DotDims.WF S512x16 S16x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .bf16 = 32 ∨ (Rect.block (s := S1024x16) S1024x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x1024.size a
  hwx0_3 : ∀ i : grid0.Coords, EltTy.bits .bf16 = 32 ∨ (Rect.block (s := S16x1024) S16x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .f32 = 32 ∨ (Rect.block (s := S32768x1024) S512x1024.size (cc0_transform_7 i) (hinb0_7 i)).WholeWords (EltTy.packing .f32)

variable [Facts₀]

def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x16 : Shape := ⟨2, ![1024, 16]⟩
abbrev S1x1024 : Shape := ⟨2, ![1, 1024]⟩
abbrev S1024x1024 : Shape := ⟨2, ![1024, 1024]⟩
abbrev S1024 : Shape := ⟨1, ![1024]⟩
abbrev S8x4096x16 : Shape := ⟨3, ![8, 4096, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x16, .f32⟩
  | .hbm, ⟨3, _⟩ => ⟨S1024x16, .f32⟩
  | .hbm, ⟨4, _⟩ => ⟨S1x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x4096x16, .f32⟩
  | .hbm, ⟨10, _⟩ => ⟨S8x4096x16, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x16, .f32⟩
  | .hbm, ⟨22, _⟩ => ⟨S8x4096x16, .f32⟩
  | .hbm, ⟨23, _⟩ => ⟨S8x4096x16, .f32⟩
  | .hbm, ⟨24, _⟩ => ⟨S8x4096x1024, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S_, .f32⟩
  | .hbm, ⟨91, _⟩ => ⟨S8x4096x1, .f32⟩
  | .hbm, ⟨92, _⟩ => ⟨S8x4096x1, .i1⟩
  | .hbm, ⟨93, _⟩ => ⟨S8x4096x1, .f32⟩
  | .hbm, ⟨94, _⟩ => ⟨S_, .f32⟩
  | .hbm, ⟨95, _⟩ => ⟨S8x4096x1, .f32⟩
  | .hbm, ⟨96, _⟩ => ⟨S8x4096x1, .f32⟩
  | .hbm, ⟨97, _⟩ => ⟨S_, .f32⟩
  | .hbm, ⟨98, _⟩ => ⟨S8x4096x1, .f32⟩
  | .hbm, ⟨99, _⟩ => ⟨S8x4096x1, .f32⟩
  | .hbm, ⟨100, _⟩ => ⟨S8x4096x1024, .f32⟩
  | .hbm, ⟨101, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_cst_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩

abbrev nD : Nat := 1
abbrev τ : Topo := Topo.v7x

variable {F : FTy → Type} [FloatOps F]

class Facts₀ : Prop where
  reducesTo_S8x4096x16_S8x4096_d2 : S8x4096x16.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x16_0_1_2 : S8x4096x1.BroadcastsInDim S8x4096x16 (![0, 1, 2] : Fin 3 → Fin S8x4096x16.rank)
  bcast_S8x4096x1_S8x4096x1024_0_1_2 : S8x4096x1.BroadcastsInDim S8x4096x1024 (![0, 1, 2] : Fin 3 → Fin S8x4096x1024.rank)
  bcast_S_S8x4096x1024 : S_.BroadcastsInDim S8x4096x1024 (![] : Fin 0 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x1024_S8x4096_d2 : S8x4096x1024.ReducesTo [2] S8x4096
  dot_S8x4096x1024_S1024x16_S8x4096x16_2_0_01_1_n_n_wf : DotDims.WF S8x4096x1024 S1024x16 S8x4096x16 [2] [0] [0, 1] [1] [] []
  dot_S8x4096x16_S1024x16_S8x4096x1024_2_1_01_0_n_n_wf : DotDims.WF S8x4096x16 S1024x16 S8x4096x1024 [2] [1] [0, 1] [0] [] []
  dot_S8x4096x1024_S1x1024_S8x4096x1_2_1_01_0_n_n_wf : DotDims.WF S8x4096x1024 S1x1024 S8x4096x1 [2] [1] [0, 1] [0] [] []
  dot_S8x4096x1024_S1024x1024_S8x4096x1024_2_1_01_0_n_n_wf : DotDims.WF S8x4096x1024 S1024x1024 S8x4096x1024 [2] [1] [0, 1] [0] [] []

variable [Facts₀]

def dot_S8x4096x1024_S1024x16_S8x4096x16_2_0_01_1_n_n : DotDims S8x4096x1024 S1024x16 S8x4096x16 where
  lhsContracting := [2]
  rhsContracting := [0]
  lhsNonContracting := [0, 1]
  rhsNonContracting := [1]
  lhsBatch := []
  rhsBatch := []
  wf := dot_S8x4096x1024_S1024x16_S8x4096x16_2_0_01_1_n_n_wf
def dot_S8x4096x16_S1024x16_S8x4096x1024_2_1_01_0_n_n : DotDims S8x4096x16 S1024x16 S8x4096x1024 where
  lhsContracting := [2]
  rhsContracting := [1]
  lhsNonContracting := [0, 1]
  rhsNonContracting := [0]
  lhsBatch := []
  rhsBatch := []
  wf := dot_S8x4096x16_S1024x16_S8x4096x1024_2_1_01_0_n_n_wf
def dot_S8x4096x1024_S1x1024_S8x4096x1_2_1_01_0_n_n : DotDims S8x4096x1024 S1x1024 S8x4096x1 where
  lhsContracting := [2]
  rhsContracting := [1]
  lhsNonContracting := [0, 1]
  rhsNonContracting := [0]
  lhsBatch := []
  rhsBatch := []
  wf := dot_S8x4096x1024_S1x1024_S8x4096x1_2_1_01_0_n_n_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.RowSpec.lean ====
/-
  One row of the curvature layer, as mathematics.

  The layer acts on each row (one position of one batch entry) independently.  For a row v of velocities and a row x of
  positions, both of length 1024, and weights U, W (1024 x 16), Vw (a 1024-vector), Gw, Fw (1024 x 1024) with biases gb, fb:

    proj r     = sum_k v k * U k r                                the 16 low-rank coordinates of v
    shrink     = 1 / (1 + sqrt (sum_r proj r * proj r))           one over one plus their Euclidean length
    quad d     = sum_r (proj r * proj r * shrink) * W d r         the low-rank quadratic form, lifted back to 1024 lanes
    potential  = sigmoid (sum_k x k * Vw k)
    clamped d  = min 5 (max (-5) (quad d * (1 + potential)))
    gate d     = sigmoid ((sum_k x k * Gw d k) + gb d),  friction d likewise with Fw, fb
    energy     = tanh ((sum_k v k * v k) / 1024)
    boost      = 1 + [potential > 0.8] * 9                        the indicator of the comparison, as 0 or 1
    out d      = ((clamped d * gate d + friction d * v d) * (1 + 0.5 * energy)) * boost

  Every number is an extended real and every operation the exact one; the float constants are kept as the words the
  programs carry (the same word denotes the same extended real wherever it stands), except that the word of 1.0 is
  shown to be 1 where the sigmoid's definition needs it.  Three facts about single numbers are proved here as well:
  the sigmoid written out as 1 / (1 + exp (-t)) is the sigmoid; the word of 1.0 is 1; and a one-bit comparison result
  widened to 32 bits and read as a signed integer is the same number as the bit read as an unsigned integer.
-/
import Idealize.ShloMosaic.PureOps.Ideal
import Idealize.ShloMosaic.PureOps.Ideal.Laws
import Idealize.ShloMosaic.Lib.ValueIdx

noncomputable section

open scoped BigOperators

namespace Cert.RowSpec

open Idealize.ShloMosaic

/-- The float words the two programs carry, as the extended reals they denote. -/
abbrev w1 : EReal := Ideal.ofBits .f32 0x3F800000#32      -- 1.0
abbrev wNeg5 : EReal := Ideal.ofBits .f32 0xC0A00000#32   -- -5.0
abbrev w5 : EReal := Ideal.ofBits .f32 0x40A00000#32      -- 5.0
abbrev w1024 : EReal := Ideal.ofBits .f32 0x44800000#32   -- 1024.0
abbrev wHalf : EReal := Ideal.ofBits .f32 0x3F000000#32   -- 0.5
abbrev wThr : EReal := Ideal.ofBits .f32 0x3F4CCCCD#32    -- the float nearest 0.8
abbrev w9 : EReal := Ideal.ofBits .f32 0x41100000#32      -- 9.0

/-- A one-bit truth value as the number 0 or 1. -/
def ind (c : BitVec 1) : EReal := ((c.toNat : ℝ) : EReal)

section row

variable (v x : Fin 1024 → EReal) (U W : Fin 1024 → Fin 16 → EReal) (Vw : Fin 1024 → EReal)
  (Gw : Fin 1024 → Fin 1024 → EReal) (gb : Fin 1024 → EReal) (Fw : Fin 1024 → Fin 1024 → EReal) (fb : Fin 1024 → EReal)

/-- The row's low-rank coordinates. -/
def proj (r : Fin 16) : EReal := ∑ k : Fin 1024, v k * U k r

/-- One over one plus the Euclidean length of the low-rank coordinates. -/
def shrink : EReal := Ideal.div w1 (w1 + Ideal.sqrt (∑ r : Fin 16, proj v U r * proj v U r))

/-- The quadratic form lifted back to lane d. -/
def quad (d : Fin 1024) : EReal := ∑ r : Fin 16, (proj v U r * proj v U r * shrink v U) * W d r

/-- The row's potential: the sigmoid of the positions against Vw. -/
def potential : EReal := Ideal.logistic (∑ k : Fin 1024, x k * Vw k)

/-- The quadratic form scaled by one plus the potential and clamped to [-5, 5]. -/
def clamped (d : Fin 1024) : EReal := min w5 (max wNeg5 (quad v U W d * (w1 + potential x Vw)))

/-- A sigmoid gate of the positions: lane d's weights' row against x, plus a bias. -/
def gateOf (G : Fin 1024 → Fin 1024 → EReal) (b : Fin 1024 → EReal) (d : Fin 1024) : EReal :=
  Ideal.logistic ((∑ k : Fin 1024, x k * G d k) + b d)

/-- The hyperbolic tangent of the mean square of the velocities. -/
def energy : EReal := Ideal.tanh (Ideal.div (∑ k : Fin 1024, v k * v k) w1024)

/-- Ten where the potential exceeds the threshold, one elsewhere. -/
def boost : EReal := w1 + ind (Ideal.cmp .ogt (potential x Vw) wThr) * w9

/-- Lane d of the row's result. -/
def out (d : Fin 1024) : EReal :=
  ((clamped v x U W Vw d * gateOf x Gw gb d + gateOf x Fw fb d * v d) * (w1 + wHalf * energy v)) * boost x Vw

end row

/-! ## The whole array -/

section whole

open ValueIdx

variable (v x : (⟨3, ![8, 4096, 1024]⟩ : Shape).Idx → EReal) (U W : (⟨2, ![1024, 16]⟩ : Shape).Idx → EReal)
  (Vw : (⟨2, ![1, 1024]⟩ : Shape).Idx → EReal)
  (Gw : (⟨2, ![1024, 1024]⟩ : Shape).Idx → EReal) (gb : (⟨1, ![1024]⟩ : Shape).Idx → EReal)
  (Fw : (⟨2, ![1024, 1024]⟩ : Shape).Idx → EReal) (fb : (⟨1, ![1024]⟩ : Shape).Idx → EReal)

/-- The result at batch entry b, position s, lane d: the row function of row (b, s) of v and of x, the weight
    matrices read as they are stored (U k r, W d r, Gw d k, Fw d k), Vw's one row, the biases. -/
def rowAt (b : Fin 8) (s : Fin 4096) (d : Fin 1024) : EReal :=
  out (fun k => v (ix3 b s k)) (fun k => x (ix3 b s k)) (fun k r => U (ix2 k r)) (fun e r => W (ix2 e r))
    (fun k => Vw (ix2 (0 : Fin 1) k)) (fun e k => Gw (ix2 e k)) (fun e => gb (ix1 e)) (fun e k => Fw (ix2 e k))
    (fun e => fb (ix1 e)) d

/-- The layer's result as one function of the nine argument arrays. -/
def whole : (⟨3, ![8, 4096, 1024]⟩ : Shape).Idx → EReal := fun i => rowAt v x U W Vw Gw gb Fw fb (i 0) (i 1) (i 2)

theorem whole_ix3 (b : Fin 8) (s : Fin 4096) (d : Fin 1024) :
    whole v x U W Vw Gw gb Fw fb (ix3 b s d) = rowAt v x U W Vw Gw gb Fw fb b s d := rfl

end whole

/-! ## Three facts about single numbers -/

/-- The word of 1.0 denotes 1. -/
theorem w1_eq : w1 = 1 := by
  simp [w1, Ideal.ofBits, Ideal.ieee, -EReal.coe_mul]; norm_num

/-- The sigmoid written out, 1 / (1 + exp (-t)) with the word of 1.0 for each 1, is the sigmoid. -/
theorem sigmoid_spelt (t : EReal) : Ideal.div w1 (w1 + Ideal.exp (-t)) = Ideal.logistic t := by
  rw [w1_eq]; rfl

/-- A bit widened to 32 bits and read signed is the bit read unsigned. -/
theorem ind_widened (c : BitVec 1) : (((c.setWidth 32).toInt : ℝ) : EReal) = ind c := by
  rcases BitVec.eq_zero_or_eq_one c with h | h <;> subst h <;> simp [ind]

end Cert.RowSpec

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.KernelRow.lean ====
/-
  The kernel's arithmetic on one block, read at an entry.

  At a grid point the kernel body loads a block of 512 rows of v and of x and the whole of the five weight arrays, and
  stores one 512 x 1024 block.  Entry (p, q) of the stored block depends only on row p of the two loaded blocks: it is
  the row function of the specification applied to row p of the v block, row p of the x block, and the weights as the
  body reads them — U as stored, W through its transpose (entry (r, e) of the transposed array is W e r), Vw's one row,
  and the two 1024 x 1024 gate matrices and their biases as the left and right halves of one 1024 x 2048 matrix and one
  2048-vector (lane e of the first gate is column e, lane e of the second is column 1024 + e).

  The matrix products are plain M x K by K x N products into a zero accumulator (sums over k), the three row
  reductions are lane sums cast to a column and broadcast back along the lanes, the changes of float format are the
  identity, and everything else is lane by lane.
-/
import proofs.«100001_j2370821948216_2_alg».proof.Proof.Gen.KernelIdeal.Skeleton
import proofs.«100001_j2370821948216_2_alg».proof.Proof.RowSpec
import proofs.«100001_j2370821948216_2_alg».proof.Proof.LibRowLayout
import proofs.«100001_j2370821948216_2_alg».proof.Proof.LibPlainMatmul
import Idealize.ShloMosaic.Lib.ValueLayout
import Idealize.ShloMosaic.Lib.Pipeline.Value

noncomputable section

open scoped BigOperators

namespace Cert.KernelRow

open Idealize.ShloMosaic Idealize.ShloMosaic.ValueIdx Cert.KernelIdeal Cert.KernelIdeal.Gen Cert.RowSpec

variable (vb xb : FVec Ideal S512x1024 .f32) (ub : FVec Ideal S1024x16 .bf16) (wtb : FVec Ideal S16x1024 .bf16)
  (vwb : FVec Ideal S1x1024 .f32) (catb : FVec Ideal S1024x2048 .bf16) (biasb : FVec Ideal S1x2048 .f32)

/-- Row p's potential: the sigmoid of the lane sum of x's row p against Vw's one row, kept as a column. -/
theorem potential_at (p : Fin 512) :
    k0_pay5 (F := Ideal) xb vwb (ix2 p (0 : Fin 1))
      = potential (fun k => xb (ix2 p k)) (fun k => vwb (ix2 (0 : Fin 1) k)) := by
  unfold k0_pay5 k0_pay3 potential
  refine congrArg Ideal.logistic ?_
  refine (Cert.RowLayout.castCol_apply _ _ p).trans ((Cert.RowLayout.laneSum_apply _ _ _ _ p).trans ?_)
  refine Finset.sum_congr rfl fun k _ => ?_
  exact congrArg₂ (· * ·) (congrFun (shapeCast_self xb _) _)
    ((broadcastTo_1b_ab_apply _ _ p k).trans (congrFun (shapeCast_self vwb _) _))

/-! ## The three matrix products' dimension records place coordinates as a plain product does -/

section dots

/-- The three products' dimension records, under short names. -/
abbrev D₁ : DotDims S512x1024 S1024x16 S512x16 := dot_S512x1024_S1024x16_S512x16_1_0_0_1_n_n
abbrev D₂ : DotDims S512x16 S16x1024 S512x1024 := dot_S512x16_S16x1024_S512x1024_1_0_0_1_n_n
abbrev D₃ : DotDims S512x1024 S1024x2048 S512x2048 := dot_S512x1024_S1024x2048_S512x2048_1_0_0_1_n_n

theorem d1_l0 (j : S512x16.Idx) (q : (dot_S512x1024_S1024x16_S512x16_1_0_0_1_n_n).contr.Idx) : (D₁.lhsIdx j q 0).val = (j 0).val := by
  unfold DotDims.lhsIdx
  rw [dif_neg (show ¬(0 : Fin S512x1024.rank) ∈ (dot_S512x1024_S1024x16_S512x16_1_0_0_1_n_n).lhsBatch by decide),
    dif_pos (show (0 : Fin S512x1024.rank) ∈ (dot_S512x1024_S1024x16_S512x16_1_0_0_1_n_n).lhsNonContracting by decide)]
  rfl
theorem d1_r1 (j : S512x16.Idx) (q : (dot_S512x1024_S1024x16_S512x16_1_0_0_1_n_n).contr.Idx) : (D₁.rhsIdx j q 1).val = (j 1).val := by
  unfold DotDims.rhsIdx
  rw [dif_neg (show ¬(1 : Fin S1024x16.rank) ∈ (dot_S512x1024_S1024x16_S512x16_1_0_0_1_n_n).rhsBatch by decide),
    dif_pos (show (1 : Fin S1024x16.rank) ∈ (dot_S512x1024_S1024x16_S512x16_1_0_0_1_n_n).rhsNonContracting by decide)]
  rfl
theorem d2_l0 (j : S512x1024.Idx) (q : (dot_S512x16_S16x1024_S512x1024_1_0_0_1_n_n).contr.Idx) : (D₂.lhsIdx j q 0).val = (j 0).val := by
  unfold DotDims.lhsIdx
  rw [dif_neg (show ¬(0 : Fin S512x16.rank) ∈ (dot_S512x16_S16x1024_S512x1024_1_0_0_1_n_n).lhsBatch by decide),
    dif_pos (show (0 : Fin S512x16.rank) ∈ (dot_S512x16_S16x1024_S512x1024_1_0_0_1_n_n).lhsNonContracting by decide)]
  rfl
theorem d2_r1 (j : S512x1024.Idx) (q : (dot_S512x16_S16x1024_S512x1024_1_0_0_1_n_n).contr.Idx) : (D₂.rhsIdx j q 1).val = (j 1).val := by
  unfold DotDims.rhsIdx
  rw [dif_neg (show ¬(1 : Fin S16x1024.rank) ∈ (dot_S512x16_S16x1024_S512x1024_1_0_0_1_n_n).rhsBatch by decide),
    dif_pos (show (1 : Fin S16x1024.rank) ∈ (dot_S512x16_S16x1024_S512x1024_1_0_0_1_n_n).rhsNonContracting by decide)]
  rfl
theorem d3_l0 (j : S512x2048.Idx) (q : (dot_S512x1024_S1024x2048_S512x2048_1_0_0_1_n_n).contr.Idx) : (D₃.lhsIdx j q 0).val = (j 0).val := by
  unfold DotDims.lhsIdx
  rw [dif_neg (show ¬(0 : Fin S512x1024.rank) ∈ (dot_S512x1024_S1024x2048_S512x2048_1_0_0_1_n_n).lhsBatch by decide),
    dif_pos (show (0 : Fin S512x1024.rank) ∈ (dot_S512x1024_S1024x2048_S512x2048_1_0_0_1_n_n).lhsNonContracting by decide)]
  rfl
theorem d3_r1 (j : S512x2048.Idx) (q : (dot_S512x1024_S1024x2048_S512x2048_1_0_0_1_n_n).contr.Idx) : (D₃.rhsIdx j q 1).val = (j 1).val := by
  unfold DotDims.rhsIdx
  rw [dif_neg (show ¬(1 : Fin S1024x2048.rank) ∈ (dot_S512x1024_S1024x2048_S512x2048_1_0_0_1_n_n).rhsBatch by decide),
    dif_pos (show (1 : Fin S1024x2048.rank) ∈ (dot_S512x1024_S1024x2048_S512x2048_1_0_0_1_n_n).rhsNonContracting by decide)]
  rfl

/-- The first product, 512 x 1024 by 1024 x 16, at (p, c). -/
theorem dot1_at {φ₁ φ₂ : FTy} (l : FVec Ideal S512x1024 φ₁) (r : FVec Ideal S1024x16 φ₂) (p : Fin 512) (c : Fin 16) :
    matmul D₁ none l r (constant (F := Ideal) S512x16 .f32 0x00000000#32) (ix2 p c) = ∑ k : Fin 1024, l (ix2 p k) * r (ix2 k c) :=
  Cert.PlainMatmul.matmul_zero_apply D₁ rfl rfl d1_l0 (fun j q => D₁.lhsIdx_val_of_single rfl j q)
    (fun j q => D₁.rhsIdx_val_of_single rfl j q) d1_r1 none l r p c
/-- The second product, 512 x 16 by 16 x 1024, at (p, c). -/
theorem dot2_at {φ₁ φ₂ : FTy} (l : FVec Ideal S512x16 φ₁) (r : FVec Ideal S16x1024 φ₂) (p : Fin 512) (c : Fin 1024) :
    matmul D₂ none l r (constant (F := Ideal) S512x1024 .f32 0x00000000#32) (ix2 p c) = ∑ k : Fin 16, l (ix2 p k) * r (ix2 k c) :=
  Cert.PlainMatmul.matmul_zero_apply D₂ rfl rfl d2_l0 (fun j q => D₂.lhsIdx_val_of_single rfl j q)
    (fun j q => D₂.rhsIdx_val_of_single rfl j q) d2_r1 none l r p c
/-- The third product, 512 x 1024 by 1024 x 2048, at (p, c). -/
theorem dot3_at {φ₁ φ₂ : FTy} (l : FVec Ideal S512x1024 φ₁) (r : FVec Ideal S1024x2048 φ₂) (p : Fin 512) (c : Fin 2048) :
    matmul D₃ none l r (constant (F := Ideal) S512x2048 .f32 0x00000000#32) (ix2 p c) = ∑ k : Fin 1024, l (ix2 p k) * r (ix2 k c) :=
  Cert.PlainMatmul.matmul_zero_apply D₃ rfl rfl d3_l0 (fun j q => D₃.lhsIdx_val_of_single rfl j q)
    (fun j q => D₃.rhsIdx_val_of_single rfl j q) d3_r1 none l r p c

end dots

/-! ## The loaded blocks pass through identity casts and format changes -/

theorem vrow_at (j : S512x1024.Idx) : k0_pay2 (F := Ideal) vb j = vb j := by
  unfold k0_pay2; exact congrFun (shapeCast_self vb _) j
theorem xrow_at (j : S512x1024.Idx) : k0_pay4 (F := Ideal) xb j = xb j := by
  unfold k0_pay4 k0_pay3; exact congrFun (shapeCast_self xb _) j

/-! ## The low-rank quadratic form, scaled and clamped -/

/-- Entry (p, c) of the projection of the v block onto the 16 low-rank directions. -/
theorem proj_at (p : Fin 512) (c : Fin 16) :
    matmul dot_S512x1024_S1024x16_S512x16_1_0_0_1_n_n none (truncf .bf16 (k0_pay2 (F := Ideal) vb) bitsLt_bf16_f32)
        (shapeCast S1024x16 ub shapeCasts_S1024x16_S1024x16) (constant (F := Ideal) S512x16 .f32 0x00000000#32) (ix2 p c)
      = proj (fun k => vb (ix2 p k)) (fun k r => ub (ix2 k r)) c :=
  (dot1_at _ _ p c).trans (Finset.sum_congr rfl fun k _ =>
    congrArg₂ (· * ·) (vrow_at vb (ix2 p k)) (congrFun (shapeCast_self ub _) _))

/-- Entry (p, q) of the block the first part of the body hands on: the quadratic form, times one plus the row's
    potential, clamped. -/
theorem clamped_at (p : Fin 512) (q : Fin 1024) :
    k0_pay6 (F := Ideal) vb xb ub wtb vwb (ix2 p q)
      = clamped (fun k => vb (ix2 p k)) (fun k => xb (ix2 p k)) (fun k r => ub (ix2 k r)) (fun e r => wtb (ix2 r e))
          (fun k => vwb (ix2 (0 : Fin 1) k)) q := by
  unfold k0_pay6 clamped
  refine congrArg (min w5) (congrArg (max wNeg5) ?_)
  refine congrArg₂ (· * ·) ?_ ?_
  · -- the quadratic form at lane q: the second product, of the scaled squares with the transposed W
    refine (dot2_at _ _ p q).trans ?_
    unfold quad
    refine Finset.sum_congr rfl fun r _ => ?_
    refine congrArg₂ (· * ·) ?_ (congrFun (shapeCast_self wtb _) _)
    refine congrArg₂ (· * ·) (congrArg₂ (· * ·) (proj_at vb ub p r) (proj_at vb ub p r)) ?_
    -- the shrink factor, a column broadcast along the 16 lanes
    refine (Cert.RowLayout.bcastCol_apply _ _ p r).trans ?_
    unfold shrink
    refine congrArg (Ideal.div w1) (congrArg (w1 + ·) (congrArg Ideal.sqrt ?_))
    refine (Cert.RowLayout.castCol_apply _ _ p).trans ((Cert.RowLayout.laneSum_apply _ _ _ _ p).trans ?_)
    exact Finset.sum_congr rfl fun r' _ => congrArg₂ (· * ·) (proj_at vb ub p r') (proj_at vb ub p r')
  · -- one plus the potential, a column broadcast along the 1024 lanes
    exact (Cert.RowLayout.bcastCol_apply _ _ p q).trans (congrArg (w1 + ·) (potential_at xb vwb p))

/-! ## The stored value -/

/-- Column e of the first half of the 2048-wide matrix and vector. -/
abbrev lo (e : Fin 1024) : Fin 2048 := ⟨e.val, by omega⟩
/-- Column e of the second half. -/
abbrev hi (e : Fin 1024) : Fin 2048 := ⟨1024 + e.val, by omega⟩

/-- A sigmoid gate read off the 2048-wide product: the logits' column c, the x block's row p against the matrix's
    column c plus the bias vector's entry c. -/
theorem logits_at (v5 : FVec Ideal S512x1024 .bf16) (p : Fin 512) (c : Fin 2048) (X : Fin 1024 → EReal)
    (hx : ∀ k, v5 (ix2 p k) = X k) :
    addf (matmul dot_S512x1024_S1024x2048_S512x2048_1_0_0_1_n_n none v5 (shapeCast S1024x2048 catb shapeCasts_S1024x2048_S1024x2048)
          (constant (F := Ideal) S512x2048 .f32 0x00000000#32))
        (broadcastTo S512x2048 (shapeCast S1x2048 biasb shapeCasts_S1x2048_S1x2048) broadcasts_S1x2048_S512x2048) (ix2 p c)
      = (∑ k : Fin 1024, X k * catb (ix2 k c)) + biasb (ix2 (0 : Fin 1) c) :=
  congrArg₂ (· + ·)
    ((dot3_at _ _ p c).trans (Finset.sum_congr rfl fun k _ => congrArg₂ (· * ·) (hx k) (congrFun (shapeCast_self catb _) _)))
    ((broadcastTo_1b_ab_apply _ _ p c).trans (congrFun (shapeCast_self biasb _) _))

/-- Entry (p, q) of the stored block, from what the first part of the body hands on (the v block, the x block, the
    potential column, the clamped form) and the 2048-wide gate matrix and bias. -/
theorem store_at (v1 : FVec Ideal S512x1024 .f32) (v5 : FVec Ideal S512x1024 .bf16) (v30 : FVec Ideal S512x1 .f32)
    (v38 : FVec Ideal S512x1024 .f32) (p : Fin 512) (q : Fin 1024) (V X : Fin 1024 → EReal)
    (hv : ∀ k, v1 (ix2 p k) = V k) (hx : ∀ k, v5 (ix2 p k) = X k)
    (pot : EReal) (hpot : v30 (ix2 p (0 : Fin 1)) = pot) (cl : EReal) (hcl : v38 (ix2 p q) = cl) :
    k0_pay1 (F := Ideal) v1 v5 v30 v38 catb biasb (ix2 p q)
      = ((cl * gateOf X (fun e k => catb (ix2 k (lo e))) (fun e => biasb (ix2 (0 : Fin 1) (lo e))) q
            + gateOf X (fun e k => catb (ix2 k (hi e))) (fun e => biasb (ix2 (0 : Fin 1) (hi e))) q * V q)
          * (w1 + wHalf * energy V)) * (w1 + ind (Ideal.cmp .ogt pot wThr) * w9) := by
  unfold k0_pay1
  refine congrArg₂ (· * ·) (congrArg₂ (· * ·) (congrArg₂ (· + ·) (congrArg₂ (· * ·) hcl ?gate) (congrArg₂ (· * ·) ?fric (hv q))) ?en) ?boost
  case gate =>
    unfold gateOf
    refine congrArg Ideal.logistic ?_
    refine (slice2_axis1_apply 0 _ _ p q (lo q) (by show q.val = 0 + q.val; omega)).trans ?_
    exact logits_at catb biasb v5 p (lo q) X hx
  case fric =>
    unfold gateOf
    refine congrArg Ideal.logistic ?_
    refine (slice2_axis1_apply 1024 _ _ p q (hi q) rfl).trans ?_
    exact logits_at catb biasb v5 p (hi q) X hx
  case en =>
    refine (Cert.RowLayout.bcastCol_apply _ _ p q).trans ?_
    refine congrArg (w1 + ·) (congrArg (wHalf * ·) ?_)
    unfold energy
    refine congrArg Ideal.tanh (congrArg (fun t => Ideal.div t w1024) ?_)
    refine (Cert.RowLayout.castCol_apply _ _ p).trans ((Cert.RowLayout.laneSum_apply _ _ _ _ p).trans ?_)
    exact Finset.sum_congr rfl fun k _ => congrArg₂ (· * ·) (hv k) (hv k)
  case boost =>
    refine (Cert.RowLayout.bcastCol_apply _ _ p q).trans ?_
    refine congrArg (w1 + ·) (congrArg (· * w9) ?_)
    exact (ind_widened _).trans (congrArg (fun t => ind (Ideal.cmp .ogt t wThr)) hpot)

/-- Entry (p, q) of the block the body stores is lane q of the row function of row p of the loaded blocks. -/
theorem payload_at (p : Fin 512) (q : Fin 1024) :
    k0_pay1 (F := Ideal) (k0_pay2 vb) (k0_pay4 xb) (k0_pay5 xb vwb) (k0_pay6 vb xb ub wtb vwb) catb biasb (ix2 p q)
      = out (fun k => vb (ix2 p k)) (fun k => xb (ix2 p k)) (fun k r => ub (ix2 k r)) (fun e r => wtb (ix2 r e))
          (fun k => vwb (ix2 (0 : Fin 1) k)) (fun e k => catb (ix2 k (lo e))) (fun e => biasb (ix2 (0 : Fin 1) (lo e)))
          (fun e k => catb (ix2 k (hi e))) (fun e => biasb (ix2 (0 : Fin 1) (hi e))) q :=
  store_at catb biasb _ _ _ _ p q _ _ (fun k => vrow_at vb (ix2 p k)) (fun k => xrow_at xb (ix2 p k))
    _ (potential_at xb vwb p) _ (clamped_at vb xb ub wtb vwb p q)

/-- The same, with the rows and weights the blocks hold given by name: whatever functions the loaded blocks are known
    to be at the entries the row function reads, the stored entry is the row function of those. -/
theorem payload_rows (p : Fin 512) (q : Fin 1024) (V X : Fin 1024 → EReal) (U W : Fin 1024 → Fin 16 → EReal)
    (Vw : Fin 1024 → EReal) (G : Fin 1024 → Fin 1024 → EReal) (gb : Fin 1024 → EReal) (Fw : Fin 1024 → Fin 1024 → EReal)
    (fb : Fin 1024 → EReal)
    (hV : ∀ k, vb (ix2 p k) = V k) (hX : ∀ k, xb (ix2 p k) = X k) (hU : ∀ k r, ub (ix2 k r) = U k r)
    (hW : ∀ e r, wtb (ix2 r e) = W e r) (hVw : ∀ k, vwb (ix2 (0 : Fin 1) k) = Vw k)
    (hG : ∀ e k, catb (ix2 k (lo e)) = G e k) (hgb : ∀ e, biasb (ix2 (0 : Fin 1) (lo e)) = gb e)
    (hF : ∀ e k, catb (ix2 k (hi e)) = Fw e k) (hfb : ∀ e, biasb (ix2 (0 : Fin 1) (hi e)) = fb e) :
    k0_pay1 (F := Ideal) (k0_pay2 vb) (k0_pay4 xb) (k0_pay5 xb vwb) (k0_pay6 vb xb ub wtb vwb) catb biasb (ix2 p q)
      = out V X U W Vw G gb Fw fb q := by
  obtain rfl : V = fun k => vb (ix2 p k) := funext fun k => (hV k).symm
  obtain rfl : X = fun k => xb (ix2 p k) := funext fun k => (hX k).symm
  obtain rfl : U = fun k r => ub (ix2 k r) := funext fun k => funext fun r => (hU k r).symm
  obtain rfl : W = fun e r => wtb (ix2 r e) := funext fun e => funext fun r => (hW e r).symm
  obtain rfl : Vw = fun k => vwb (ix2 (0 : Fin 1) k) := funext fun k => (hVw k).symm
  obtain rfl : G = fun e k => catb (ix2 k (lo e)) := funext fun e => funext fun k => (hG e k).symm
  obtain rfl : gb = fun e => biasb (ix2 (0 : Fin 1) (lo e)) := funext fun e => (hgb e).symm
  obtain rfl : Fw = fun e k => catb (ix2 k (hi e)) := funext fun e => funext fun k => (hF e k).symm
  obtain rfl : fb = fun e => biasb (ix2 (0 : Fin 1) (hi e)) := funext fun e => (hfb e).symm
  exact payload_at vb xb ub wtb vwb catb biasb p q

end Cert.KernelRow

end
-- ==== Proof.KernelBlocks.lean ====
/-
  From the blocks to the whole flat array.

  The kernel's grid has 64 points; point t loads rows 512 t .. 512 t + 511 of the flattened v and x (and the whole of
  each weight array) and writes back rows 512 t .. 512 t + 511 of the flat result, all 1024 lanes.  What it writes at
  entry (p, q) of its block is the row function of row 512 t + p.  So the block point t writes back is block t of ONE
  function of the arrays the region finds: at (r, q), the row function of row r of the flat v and x, lane q.  The 64
  blocks tile the 32768 rows (row r lies in the block of point r / 512), so after the grid the flat result array is that
  function everywhere.
-/
import proofs.«100001_j2370821948216_2_alg».proof.Proof.Gen.KernelIdeal.Frame
import proofs.«100001_j2370821948216_2_alg».proof.Proof.KernelRow
import Idealize.ShloMosaic.Lib.Pipeline.Value

noncomputable section

namespace Cert.KernelBlocks

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ) (ρ : Dev nD → PrngReg) (c : Dev nD)

/-- Lane q of row r of the flat result, from the seven arrays the region finds: the flat v and x, U, the transposed
    W, Vw, the 1024 x 2048 gate matrix and the 2048-wide bias. -/
def flatRow (A0 A1 : S32768x1024.Idx → EReal) (A2 : S1024x16.Idx → EReal) (A3 : S16x1024.Idx → EReal)
    (A4 : S1x1024.Idx → EReal) (A5 : S1024x2048.Idx → EReal) (A6 : S1x2048.Idx → EReal) (r : Fin 32768) (q : Fin 1024) : EReal :=
  Cert.RowSpec.out (fun k => A0 (ix2 r k)) (fun k => A1 (ix2 r k)) (fun k j => A2 (ix2 k j)) (fun e j => A3 (ix2 j e))
    (fun k => A4 (ix2 (0 : Fin 1) k)) (fun e k => A5 (ix2 k (Cert.KernelRow.lo e))) (fun e => A6 (ix2 (0 : Fin 1) (Cert.KernelRow.lo e)))
    (fun e k => A5 (ix2 k (Cert.KernelRow.hi e))) (fun e => A6 (ix2 (0 : Fin 1) (Cert.KernelRow.hi e))) q

/-- The flat result as one function of those arrays. -/
def flatAll (A0 A1 : S32768x1024.Idx → EReal) (A2 : S1024x16.Idx → EReal) (A3 : S16x1024.Idx → EReal)
    (A4 : S1x1024.Idx → EReal) (A5 : S1024x2048.Idx → EReal) (A6 : S1x2048.Idx → EReal) : S32768x1024.Idx → EReal :=
  fun i => flatRow A0 A1 A2 A3 A4 A5 A6 (i 0) (i 1)

theorem hz : (![0, 0] : Fin 2 → Nat) = fun _ => 0 := funext fun a => by fin_cases a <;> rfl

/-- The grid has 64 points. -/
theorem lt64 (t : Fin cfg0.N) : t.val < 64 := lt_of_lt_of_eq t.isLt N_0

/-- The index maps, decided over the 64 points: the v, x and result windows move down one block of rows per point, the
    five weight windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block is flat row 512 t + p. -/
def rowOf (t : Fin cfg0.N) (p : Fin 512) : Fin 32768 := ⟨t.val * 512 + p.val, by have := lt64 t; have := p.isLt; omega⟩

/-! ## Each window's block at a point, read at an entry -/

theorem blk_v (t : Fin cfg0.N) (p : Fin 512) (k : Fin 1024) :
    iblk m c 0 t (ix2 p k) = V m c main_v0 (ix2 (rowOf t p) k) := by
  obtain ⟨e0, e1, -⟩ := idx_facts t
  show V m c main_v0 (((cfg0.win 0).blk t).view.emb (ix2 p k)) = V m c main_v0 (ix2 (rowOf t p) k)
  refine congrArg (V m c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

theorem blk_x (t : Fin cfg0.N) (p : Fin 512) (k : Fin 1024) :
    iblk m c 1 t (ix2 p k) = V m c main_v1 (ix2 (rowOf t p) k) := by
  obtain ⟨-, -, e0, e1, -⟩ := idx_facts t
  show V m c main_v1 (((cfg0.win 1).blk t).view.emb (ix2 p k)) = V m c main_v1 (ix2 (rowOf t p) k)
  refine congrArg (V m c main_v1) (funext fun a => Fin.ext ?_)
  match a with
  | ⟨0, _⟩ => show win0_1.index t (0 : Fin 2) * 512 + 1 * p.val = t.val * 512 + p.val; omega
  | ⟨1, _⟩ => show win0_1.index t (1 : Fin 2) * 1024 + 1 * k.val = k.val; omega

theorem blk_u (t : Fin cfg0.N) (k : Fin 1024) (r : Fin 16) :
    iblk m c 2 t (ix2 k r) = V m c main_v2 (ix2 k r) := by
  obtain ⟨-, -, -, -, e0, e1, -⟩ := idx_facts t
  show V m c main_v2 (((cfg0.win 2).blk t).view.emb (ix2 k r)) = V m c main_v2 (ix2 k r)
  refine congrArg (V m c main_v2) (funext fun a => Fin.ext ?_)
  match a with
  | ⟨0, _⟩ => show win0_2.index t (0 : Fin 2) * 1024 + 1 * k.val = k.val; omega
  | ⟨1, _⟩ => show win0_2.index t (1 : Fin 2) * 16 + 1 * r.val = r.val; omega

theorem blk_wt (t : Fin cfg0.N) (r : Fin 16) (e : Fin 1024) :
    iblk m c 3 t (ix2 r e) = V m c main_v4 (ix2 r e) := by
  obtain ⟨-, -, -, -, -, -, e0, e1, -⟩ := idx_facts t
  show V m c main_v4 (((cfg0.win 3).blk t).view.emb (ix2 r e)) = V m c main_v4 (ix2 r e)
  refine congrArg (V m c main_v4) (funext fun a => Fin.ext ?_)
  match a with
  | ⟨0, _⟩ => show win0_3.index t (0 : Fin 2) * 16 + 1 * r.val = r.val; omega
  | ⟨1, _⟩ => show win0_3.index t (1 : Fin 2) * 1024 + 1 * e.val = e.val; omega

theorem blk_vw (t : Fin cfg0.N) (u : Fin 1) (k : Fin 1024) :
    iblk m c 4 t (ix2 u k) = V m c main_arg4 (ix2 u k) := by
  obtain ⟨-, -, -, -, -, -, -, -, e0, e1, -⟩ := idx_facts t
  show V m c main_arg4 (((cfg0.win 4).blk t).view.emb (ix2 u k)) = V m c main_arg4 (ix2 u k)
  refine congrArg (V m c main_arg4) (funext fun a => Fin.ext ?_)
  match a with
  | ⟨0, _⟩ => show win0_4.index t (0 : Fin 2) * 1 + 1 * u.val = u.val; omega
  | ⟨1, _⟩ => show win0_4.index t (1 : Fin 2) * 1024 + 1 * k.val = k.val; omega

theorem blk_cat (t : Fin cfg0.N) (k : Fin 1024) (e : Fin 2048) :
    iblk m c 5 t (ix2 k e) = V m c main_v8 (ix2 k e) := by
  obtain ⟨-, -, -, -, -, -, -, -, -, -, e0, e1, -⟩ := idx_facts t
  show V m c main_v8 (((cfg0.win 5).blk t).view.emb (ix2 k e)) = V m c main_v8 (ix2 k e)
  refine congrArg (V m c main_v8) (funext fun a => Fin.ext ?_)
  match a with
  | ⟨0, _⟩ => show win0_5.index t (0 : Fin 2) * 1024 + 1 * k.val = k.val; omega
  | ⟨1, _⟩ => show win0_5.index t (1 : Fin 2) * 2048 + 1 * e.val = e.val; omega

theorem blk_bias (t : Fin cfg0.N) (u : Fin 1) (e : Fin 2048) :
    iblk m c 6 t (ix2 u e) = V m c main_v10 (ix2 u e) := by
  obtain ⟨-, -, -, -, -, -, -, -, -, -, -, -, e0, e1, -⟩ := idx_facts t
  show V m c main_v10 (((cfg0.win 6).blk t).view.emb (ix2 u e)) = V m c main_v10 (ix2 u e)
  refine congrArg (V m c main_v10) (funext fun a => Fin.ext ?_)
  match a with
  | ⟨0, _⟩ => show win0_6.index t (0 : Fin 2) * 1 + 1 * u.val = u.val; omega
  | ⟨1, _⟩ => show win0_6.index t (1 : Fin 2) * 2048 + 1 * e.val = e.val; omega

/-- Entry (p, q) of point t's result block sits at flat row 512 t + p, lane q. -/
theorem emb_out (t : Fin cfg0.N) (p : Fin 512) (q : Fin 1024) :
    ((cfg0.win 7).blk t).view.emb (ix2 p q) = ix2 (rowOf t p) q := by
  obtain ⟨-, -, -, -, -, -, -, -, -, -, -, -, -, -, e0, e1⟩ := idx_facts t
  refine funext fun a => Fin.ext ?_
  match a with
  | ⟨0, _⟩ => show win0_7.index t (0 : Fin 2) * 512 + 1 * p.val = t.val * 512 + p.val; omega
  | ⟨1, _⟩ => show win0_7.index t (1 : Fin 2) * 1024 + 1 * q.val = q.val; omega

/-! ## What a point writes back, the cover, and the array after the grid -/

/-- WHAT POINT t WRITES BACK is block t of the flat function of the arrays the region finds. -/
theorem flushed_eq (t : Fin cfg0.N) :
    (dats m 0 c).flushed 7 t = ((cfg0.win 7).blk t).view.read (Elt Ideal)
      (flatAll (V m c main_v0) (V m c main_v1) (V m c main_v2) (V m c main_v4) (V m c main_arg4) (V m c main_v8) (V m c main_v10)) := by
  show (cfg0.win 7).cut (grid0.coords t) ((dats m 0 c).after 7 t) = _
  rw [after0_7]
  unfold out0_7
  rw [View.canon_unit_zero hz]
  simp only [View.ld_unit_zero (S := S512x1024) hz, View.ld_unit_zero (S := S1024x16) hz, View.ld_unit_zero (S := S16x1024) hz,
    View.ld_unit_zero (S := S1x1024) hz, View.ld_unit_zero (S := S1024x2048) hz, View.ld_unit_zero (S := S1x2048) hz]
  funext j
  obtain ⟨p, q, rfl⟩ : ∃ (p : Fin 512) (q : Fin 1024), j = ix2 p q := ⟨j 0, j 1, eq_ix2 j⟩
  show k0_pay1 (F := Ideal) (k0_pay2 (iblk m c 0 t)) (k0_pay4 (iblk m c 1 t)) (k0_pay5 (iblk m c 1 t) (iblk m c 4 t))
        (k0_pay6 (iblk m c 0 t) (iblk m c 1 t) (iblk m c 2 t) (iblk m c 3 t) (iblk m c 4 t)) (iblk m c 5 t) (iblk m c 6 t) (ix2 p q)
      = flatAll (V m c main_v0) (V m c main_v1) (V m c main_v2) (V m c main_v4) (V m c main_arg4) (V m c main_v8) (V m c main_v10)
          (((cfg0.win 7).blk t).view.emb (ix2 p q))
  rw [emb_out t p q]
  show _ = flatRow (V m c main_v0) (V m c main_v1) (V m c main_v2) (V m c main_v4) (V m c main_arg4) (V m c main_v8) (V m c main_v10) (rowOf t p) q
  unfold flatRow
  exact Cert.KernelRow.payload_rows (iblk m c 0 t) (iblk m c 1 t) (iblk m c 2 t) (iblk m c 3 t) (iblk m c 4 t) (iblk m c 5 t) (iblk m c 6 t)
    p q _ _ _ _ _ _ _ _ _
    (fun k => blk_v m c t p k) (fun k => blk_x m c t p k) (fun k r => blk_u m c t k r) (fun e r => blk_wt m c t r e)
    (fun k => blk_vw m c t 0 k) (fun e k => blk_cat m c t k _) (fun e => blk_bias m c t 0 _)
    (fun e k => blk_cat m c t k _) (fun e => blk_bias m c t 0 _)

/-- An index of the flat result is in point t's block iff each coordinate is in the block's range on its axis. -/
theorem mem_blk (t : Fin cfg0.N) (i : S32768x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v11).slice (win0_7.rect t)).set ↔ _
  rw [View.set_slice_whole, Rect.mem_set_unit]
  exact Iff.rfl

/-- Every index of the flat result lies in the block of the point its row falls to: row r in the block of point r / 512. -/
theorem cover (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  have hN : (i 0).val / 512 < cfg0.N := lt_of_lt_of_eq (by omega : (i 0).val / 512 < 64) N_0.symm
  obtain ⟨-, -, -, -, -, -, -, -, -, -, -, -, -, -, e0, e1⟩ := idx_facts ⟨(i 0).val / 512, hN⟩
  refine ⟨⟨(i 0).val / 512, hN⟩, flush0_7 _, ?_⟩
  rw [mem_blk]
  intro a
  match a with
  | ⟨0, _⟩ =>
    show win0_7.index ⟨(i 0).val / 512, hN⟩ (0 : Fin 2) * 512 ≤ (i 0).val
      ∧ (i 0).val < win0_7.index ⟨(i 0).val / 512, hN⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, hN⟩ (1 : Fin 2) * 1024 ≤ (i 1).val
      ∧ (i 1).val < win0_7.index ⟨(i 0).val / 512, hN⟩ (1 : Fin 2) * 1024 + 1024
    rw [e1]; omega

/-- THE FLAT RESULT after the grid is the flat function of the arrays the region finds. -/
theorem final :
    (dats m 0 c).arrAt 7 cfg0.N
      = flatAll (V m c main_v0) (V m c main_v1) (V m c main_v2) (V m c main_v4) (V m c main_arg4) (V m c main_v8) (V m c main_v10) :=
  (dats m 0 c).arrAt_eq_of_cover 7 _ (fun t _ => flushed_eq m c t) (cover)

end Cert.KernelBlocks

end
-- ==== Proof.KernelEntry.lean ====
/-
  The arrays the kernel's region finds.

  Before the kernel's grid runs, the program re-lays its arguments: v and x, [8, 4096, 1024], are flattened to
  [32768, 1024] (row b * 4096 + s of the flat array is row (b, s)); U changes float format only; W is transposed; the
  two 1024 x 1024 gate matrices are transposed and laid side by side into one 1024 x 2048 matrix (columns 0..1023 the
  first, 1024..2047 the second); the two biases are joined into one 2048-vector and given a leading unit axis.  At the
  exact extended reals a change of float format is the identity, so each of these arrays, read at an entry, is an
  argument array read at an entry.  Vw is passed as it is.
-/
import proofs.«100001_j2370821948216_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

noncomputable section

namespace Cert.KernelEntry

open Cert.KernelIdeal Cert.KernelIdeal.Gen Idealize.ShloMosaic Idealize.ShloMosaic.TcCoe Idealize.ShloMosaic.ValueIdx
  Idealize.SL.Sem Idealize.ShloMosaic.StableHlo

variable (m : (ℓ : Loc nD τ sig) → Buf (Elt Ideal) ℓ) (c : Dev nD)

/-- The flat row of batch entry b, position s. -/
def flat (b : Fin 8) (s : Fin 4096) : Fin 32768 := ⟨b.val * 4096 + s.val, by have := b.isLt; have := s.isLt; omega⟩
/-- Column e of the first half of a 2048-wide axis. -/
abbrev lo (e : Fin 1024) : Fin 2048 := ⟨e.val, by omega⟩
/-- Column e of the second half. -/
abbrev hi (e : Fin 1024) : Fin 2048 := ⟨1024 + e.val, by omega⟩

/-- The flattened v: its row b * 4096 + s is row (b, s) of v. -/
theorem v_at (b : Fin 8) (s : Fin 4096) (k : Fin 1024) :
    V m c main_v0 (ix2 (flat b s) k) = m ((c : Thread nD τ).loc main_arg0) (ix3 b s k) := by
  have e : (V m c main_v0 : S32768x1024.Idx → EReal)
      = shapeCast S32768x1024 (m ((c : Thread nD τ).loc main_arg0)) shapeCasts_S8x4096x1024_S32768x1024 := by
    show StableHlo.after hostOps0 (fun b => m (c, b)) (Proc.devRef .tc main_v0) = _
    after_results <;> rfl
  refine (congrFun e _).trans ?_
  exact shapeCast_apply _ _ (ix2 (flat b s) k) (ix3 b s k) (by
    rw [Shape.rowMajor_val_three, Shape.rowMajor_val_two]; rfl)

/-- The flattened x likewise. -/
theorem x_at (b : Fin 8) (s : Fin 4096) (k : Fin 1024) :
    V m c main_v1 (ix2 (flat b s) k) = m ((c : Thread nD τ).loc main_arg1) (ix3 b s k) := by
  have e : (V m c main_v1 : S32768x1024.Idx → EReal)
      = shapeCast S32768x1024 (m ((c : Thread nD τ).loc main_arg1)) shapeCasts_S8x4096x1024_S32768x1024 := by
    show StableHlo.after hostOps0 (fun b => m (c, b)) (Proc.devRef .tc main_v1) = _
    after_results <;> rfl
  refine (congrFun e _).trans ?_
  exact shapeCast_apply _ _ (ix2 (flat b s) k) (ix3 b s k) (by
    rw [Shape.rowMajor_val_three, Shape.rowMajor_val_two]; rfl)

/-- U in the matrix unit's format is U. -/
theorem u_at (j : S1024x16.Idx) : V m c main_v2 j = m ((c : Thread nD τ).loc main_arg2) j := by
  have e : (V m c main_v2 : S1024x16.Idx → EReal)
      = truncf (F := Ideal) (s := S1024x16) .bf16 (m ((c : Thread nD τ).loc main_arg2) : FVec Ideal S1024x16 .f32) bitsLt_bf16_f32 := by
    show StableHlo.after hostOps0 (fun b => m (c, b)) (Proc.devRef .tc main_v2) = _
    after_results <;> rfl
  exact congrFun e j

/-- The transposed W at (r, e) is W at (e, r). -/
theorem wt_at (r : Fin 16) (e : Fin 1024) :
    V m c main_v4 (ix2 r e) = m ((c : Thread nD τ).loc main_arg3) (ix2 e r) := by
  have h : (V m c main_v4 : S16x1024.Idx → EReal)
      = truncf (F := Ideal) (s := S16x1024) .bf16 (transpose S16x1024 [1, 0] (m ((c : Thread nD τ).loc main_arg3) : FVec Ideal S1024x16 .f32)
          transposes_S1024x16_S16x1024_1_0 : FVec Ideal S16x1024 .f32) bitsLt_bf16_f32 := by
    show StableHlo.after hostOps0 (fun b => m (c, b)) (Proc.devRef .tc main_v4) = _
    after_results <;> rfl
  refine (congrFun h _).trans ?_
  exact transpose_ix2_apply _ _ r e

/-- Vw reaches the region as launched. -/
theorem vw_at (j : S1x1024.Idx) : V m c main_arg4 j = m ((c : Thread nD τ).loc main_arg4) j :=
  congrFun (V_main_arg4 m c) j

/-- The two transposed gate matrices side by side, as one term. -/
theorem cat_eq : (V m c main_v8 : S1024x2048.Idx → EReal)
    = truncf (F := Ideal) (s := S1024x2048) .bf16 (concatenate S1024x2048 1
        [⟨S1024x1024, transpose S1024x1024 [1, 0] (m ((c : Thread nD τ).loc main_arg5) : FVec Ideal S1024x1024 .f32) transposes_S1024x1024_S1024x1024_1_0⟩,
         ⟨S1024x1024, transpose S1024x1024 [1, 0] (m ((c : Thread nD τ).loc main_arg7) : FVec Ideal S1024x1024 .f32) transposes_S1024x1024_S1024x1024_1_0⟩]
        concatenates_S1024x1024_S1024x1024_S1024x2048_d1 : FVec Ideal S1024x2048 .f32) bitsLt_bf16_f32 := by
  show StableHlo.after hostOps0 (fun b => m (c, b)) (Proc.devRef .tc main_v8) = _
  after_results <;> rfl

/-- Column e of the left half at row k is the first gate matrix at (e, k). -/
theorem cat_lo_at (k e : Fin 1024) :
    V m c main_v8 (ix2 k (lo e)) = m ((c : Thread nD τ).loc main_arg5) (ix2 e k) := by
  refine (congrFun (cat_eq m c) _).trans ?_
  refine (concatenate_pair_apply_left (t := S1024x2048) (s₁ := S1024x1024) (s₂ := S1024x1024) (1 : Fin 2) _ _
    concatenates_S1024x1024_S1024x1024_S1024x2048_d1 (ix2 k (lo e)) rfl (ix2 k e)
    (fun b => match b with | ⟨0, _⟩ => rfl | ⟨1, _⟩ => rfl)).trans ?_
  exact transpose_ix2_apply _ _ k e

/-- Column 1024 + e at row k is the second gate matrix at (e, k). -/
theorem cat_hi_at (k e : Fin 1024) :
    V m c main_v8 (ix2 k (hi e)) = m ((c : Thread nD τ).loc main_arg7) (ix2 e k) := by
  refine (congrFun (cat_eq m c) _).trans ?_
  refine (concatenate_pair_apply_right (t := S1024x2048) (s₁ := S1024x1024) (s₂ := S1024x1024) (1 : Fin 2) _ _
    concatenates_S1024x1024_S1024x1024_S1024x2048_d1 (ix2 k (hi e)) rfl rfl (ix2 k e)
    (fun b => match b with
      | ⟨0, _⟩ => fun _ => rfl
      | ⟨1, _⟩ => fun hne => absurd (Fin.ext rfl) hne)
    (by show e.val + 1024 = 1024 + e.val; omega)).trans ?_
  exact transpose_ix2_apply _ _ k e

/-- The joined biases with a leading unit axis, as one term. -/
theorem bias_eq : (V m c main_v10 : S1x2048.Idx → EReal)
    = shapeCast S1x2048 (concatenate S2048 0
        [⟨S1024, (m ((c : Thread nD τ).loc main_arg6) : FVec Ideal S1024 .f32)⟩, ⟨S1024, (m ((c : Thread nD τ).loc main_arg8) : FVec Ideal S1024 .f32)⟩]
        concatenates_S1024_S1024_S2048_d0) shapeCasts_S2048_S1x2048 := by
  show StableHlo.after hostOps0 (fun b => m (c, b)) (Proc.devRef .tc main_v10) = _
  after_results <;> rfl

/-- Entry e of the first half is the first bias at e. -/
theorem bias_lo_at (e : Fin 1024) :
    V m c main_v10 (ix2 (0 : Fin 1) (lo e)) = m ((c : Thread nD τ).loc main_arg6) (ix1 e) := by
  refine (congrFun (bias_eq m c) _).trans ?_
  refine (shapeCast_a_1a_apply _ _ (0 : Fin 1) (lo e)).trans ?_
  exact concatenate_pair_apply_left (t := S2048) (s₁ := S1024) (s₂ := S1024) (0 : Fin 1) _ _
    concatenates_S1024_S1024_S2048_d0 (ix1 (lo e)) rfl (ix1 e) (fun b => match b with | ⟨0, _⟩ => rfl)

/-- Entry 1024 + e is the second bias at e. -/
theorem bias_hi_at (e : Fin 1024) :
    V m c main_v10 (ix2 (0 : Fin 1) (hi e)) = m ((c : Thread nD τ).loc main_arg8) (ix1 e) := by
  refine (congrFun (bias_eq m c) _).trans ?_
  refine (shapeCast_a_1a_apply _ _ (0 : Fin 1) (hi e)).trans ?_
  exact concatenate_pair_apply_right (t := S2048) (s₁ := S1024) (s₂ := S1024) (0 : Fin 1) _ _
    concatenates_S1024_S1024_S2048_d0 (ix1 (hi e)) rfl rfl (ix1 e)
    (fun b => match b with | ⟨0, _⟩ => fun hne => absurd (Fin.ext rfl) hne)
    (by show e.val + 1024 = 1024 + e.val; omega)

end Cert.KernelEntry

end
-- ==== Proof.KernelValue.lean ====
/-
  The kernel program's result as one function of its arguments.

  After the grid the flat [32768, 1024] result is the flat function of the arrays the region found; the program's last
  line un-flattens it to [8, 4096, 1024], so entry (b, s, d) of the result is entry (b * 4096 + s, d) of the flat
  array: the row function of flat row b * 4096 + s, which is row (b, s) of v and x, with the weights read back through
  the re-layings done before the grid (the transposes undone, the halves of the joined gate matrix and bias picked
  out).  That is the layer's row-by-row description of the nine argument arrays.  The arguments themselves end as
  they were launched.
-/
import proofs.«100001_j2370821948216_2_alg».proof.Proof.Gen.KernelIdeal.Frame
import proofs.«100001_j2370821948216_2_alg».proof.Proof.KernelBlocks
import proofs.«100001_j2370821948216_2_alg».proof.Proof.KernelEntry
import proofs.«100001_j2370821948216_2_alg».proof.Proof.RowSpec
import Idealize.ShloMosaic.Lib.StableHlo.Run
import Idealize.ShloMosaic.Lib.Pipeline.Value

noncomputable section

namespace Cert.KernelValue

open Cert.KernelIdeal Cert.KernelIdeal.Gen Idealize.ShloMosaic Idealize.ShloMosaic.TcCoe Idealize.ShloMosaic.ValueIdx
  Idealize.SL.Sem Idealize.ShloMosaic.StableHlo
open Idealize.ShloMosaic.Pipeline (Dat)

variable (m : (ℓ : Loc nD τ sig) → Buf (Elt Ideal) ℓ) (ρ : Dev nD → PrngReg) (c : Dev nD)

/-- The row function depends on its nine arguments only through their values. -/
theorem out_congr {V V' X X' : Fin 1024 → EReal} {U U' W W' : Fin 1024 → Fin 16 → EReal} {Vw Vw' : Fin 1024 → EReal}
    {G G' : Fin 1024 → Fin 1024 → EReal} {gb gb' : Fin 1024 → EReal} {Fw Fw' : Fin 1024 → Fin 1024 → EReal}
    {fb fb' : Fin 1024 → EReal}
    (hV : ∀ k, V k = V' k) (hX : ∀ k, X k = X' k) (hU : ∀ k r, U k r = U' k r) (hW : ∀ e r, W e r = W' e r)
    (hVw : ∀ k, Vw k = Vw' k) (hG : ∀ e k, G e k = G' e k) (hgb : ∀ e, gb e = gb' e) (hF : ∀ e k, Fw e k = Fw' e k)
    (hfb : ∀ e, fb e = fb' e) (d : Fin 1024) :
    Cert.RowSpec.out V X U W Vw G gb Fw fb d = Cert.RowSpec.out V' X' U' W' Vw' G' gb' Fw' fb' d := by
  obtain rfl : V = V' := funext hV
  obtain rfl : X = X' := funext hX
  obtain rfl : U = U' := funext fun k => funext (hU k)
  obtain rfl : W = W' := funext fun e => funext (hW e)
  obtain rfl : Vw = Vw' := funext hVw
  obtain rfl : G = G' := funext fun e => funext (hG e)
  obtain rfl : gb = gb' := funext hgb
  obtain rfl : Fw = Fw' := funext fun e => funext (hF e)
  obtain rfl : fb = fb' := funext hfb
  rfl

/-- The flat function of the arrays the region finds, at flat row b * 4096 + s, is the row function of row (b, s) of
    the argument arrays. -/
theorem flat_is_row (b : Fin 8) (s : Fin 4096) (d : Fin 1024) :
    Cert.KernelBlocks.flatRow (V m c main_v0) (V m c main_v1) (V m c main_v2) (V m c main_v4) (V m c main_arg4) (V m c main_v8)
        (V m c main_v10) (Cert.KernelEntry.flat b s) d
      = Cert.RowSpec.rowAt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) b s d := by
  unfold Cert.KernelBlocks.flatRow Cert.RowSpec.rowAt
  exact out_congr (fun k => Cert.KernelEntry.v_at m c b s k) (fun k => Cert.KernelEntry.x_at m c b s k)
    (fun k r => Cert.KernelEntry.u_at m c (ix2 k r)) (fun e r => Cert.KernelEntry.wt_at m c r e)
    (fun k => Cert.KernelEntry.vw_at m c (ix2 (0 : Fin 1) k)) (fun e k => Cert.KernelEntry.cat_lo_at m c k e)
    (fun e => Cert.KernelEntry.bias_lo_at m c e) (fun e k => Cert.KernelEntry.cat_hi_at m c k e)
    (fun e => Cert.KernelEntry.bias_hi_at m c e) d

/-- The program's last line: the result is the flat array after the grid, un-flattened. -/
theorem tail_eq :
    (Pipeline.afterTail₀ cfgs (dats m) 0 (V0 m) [hostOps1] c main_v12 : S8x4096x1024.Idx → EReal)
      = shapeCast S8x4096x1024 ((dats m 0 c).arrAt 7 cfg0.N : S32768x1024.Idx → EReal) shapeCasts_S32768x1024_S8x4096x1024 := by
  unfold Pipeline.afterTail₀
  show StableHlo.after hostOps1 _ (Proc.devRef .tc main_v12) = _
  after_results
  exact congrArg (fun x : S32768x1024.Idx → EReal => shapeCast S8x4096x1024 x shapeCasts_S32768x1024_S8x4096x1024)
    (Pipeline.withArrays_arr spec0 launch0.win.arr_inj c _ _ 7)

/-- The result array, as the frame run leaves it, is the layer's row-by-row description of the argument arrays. -/
theorem result_eq (r : PUnit × MemSt nD τ sig (Elt Ideal))
    (h : Pipeline.FramePost cfgs (dats m) 0 (Pipeline.afterTail₀ cfgs (dats m) 0 (V0 m) [hostOps1]) r) :
    r.2.mem ((c : Thread nD τ).loc main_v12)
      = Cert.RowSpec.whole (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine ((h c).2 main_v12 (Pipeline.mem_restRefs_of main_v12 (by decide) (by decide))).trans ?_
  refine (tail_eq m c).trans ?_
  rw [Cert.KernelBlocks.final]
  funext i
  obtain ⟨b, s, d, rfl⟩ : ∃ (b : Fin 8) (s : Fin 4096) (d : Fin 1024), i = ix3 b s d := ⟨i 0, i 1, i 2, eq_ix3 i⟩
  rw [Cert.RowSpec.whole_ix3]
  refine (shapeCast_apply _ _ (ix3 b s d) (ix2 (Cert.KernelEntry.flat b s) d) (by
    rw [Shape.rowMajor_val_three, Shape.rowMajor_val_two]; rfl)).trans ?_
  exact flat_is_row m c b s d

/-- THE KERNEL PROGRAM'S RUN, its result named: every weakly fair execution terminates with the result array at the
    layer's row-by-row description of the argument arrays, and the nine arguments as launched. -/
theorem run : θ_run defs (onTc (τ := τ) (main (F := Ideal))) ⟨m, fun _ => 0, ρ⟩ fun r => ∀ c : Dev nD,
      r.2.mem ((c : Thread nD τ).loc main_v12)
        = Cert.RowSpec.whole (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨result_eq m c r h,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelValue

end
-- ==== Proof.RefRows.lean ====
/-
  The reference program, row by row.

  The reference computes its result through ninety-odd array operations.  Read at one index (b, s, d) each of them is a
  scalar operation on its operands at an index, a constant word, or a finite sum.  This module follows the program in
  order and shows that every intermediate array, read at row (b, s), is the matching row quantity of the row-by-row
  description of the layer: the low-rank coordinates, the shrink factor, the lifted quadratic form, the potential, the
  clamped form, the two sigmoid gates, the energy, the boost, and at last the result.  The operands stand in the same
  order on both sides, so no law of arithmetic is used beyond 0 + t = t for the sums' initial value and the spelling of
  the sigmoid as 1 / (1 + exp (-t)).
-/
import proofs.«100001_j2370821948216_2_alg».proof.Proof.Gen.ReferenceIdeal.Read
import proofs.«100001_j2370821948216_2_alg».proof.Proof.RowSpec

noncomputable section

open scoped BigOperators

namespace Cert.RefRows

open Cert.ReferenceIdeal Cert.ReferenceIdeal.Read Idealize.ShloMosaic Idealize.ShloMosaic.ValueIdx

variable (x0 x1 : (⟨S8x4096x1024, .f32⟩ : BufTy).Contents (Elt Ideal))
  (x2 x3 : (⟨S1024x16, .f32⟩ : BufTy).Contents (Elt Ideal))
  (x4 : (⟨S1x1024, .f32⟩ : BufTy).Contents (Elt Ideal))
  (x5 : (⟨S1024x1024, .f32⟩ : BufTy).Contents (Elt Ideal))
  (x6 : (⟨S1024, .f32⟩ : BufTy).Contents (Elt Ideal))
  (x7 : (⟨S1024x1024, .f32⟩ : BufTy).Contents (Elt Ideal))
  (x8 : (⟨S1024, .f32⟩ : BufTy).Contents (Elt Ideal))
  (b : Fin 8) (s : Fin 4096)

/-! ## The constant arrays

  Each scalar constant of the program is broadcast to an array; read at any index it is the word it carries. -/

theorem c_v2 (i : S8x4096x1.Idx) : val_main_v2 (F := Ideal) i = RowSpec.w1 := (val_main_v2_apply i).trans rfl
theorem c_v4 (i : S8x4096x1.Idx) : val_main_v4 (F := Ideal) i = RowSpec.w1 := (val_main_v4_apply i).trans rfl
theorem c_v13 (i : S8x4096x1.Idx) : val_main_v13 (F := Ideal) i = RowSpec.w1 := (val_main_v13_apply i).trans rfl
theorem c_v15 (i : S8x4096x1.Idx) : val_main_v15 (F := Ideal) i = RowSpec.w1 := (val_main_v15_apply i).trans rfl
theorem c_v17 (i : S8x4096x1.Idx) : val_main_v17 (F := Ideal) i = RowSpec.w1 := (val_main_v17_apply i).trans rfl
theorem c_lo (i : S8x4096x1024.Idx) : val_main_call1_v1 (F := Ideal) i = RowSpec.wNeg5 := (val_main_call1_v1_apply i).trans rfl
theorem c_hi (i : S8x4096x1024.Idx) : val_main_call1_v4 (F := Ideal) i = RowSpec.w5 := (val_main_call1_v4_apply i).trans rfl
theorem c_v28 (i : S8x4096x1024.Idx) : val_main_v28 (F := Ideal) i = RowSpec.w1 := (val_main_v28_apply i).trans rfl
theorem c_v30 (i : S8x4096x1024.Idx) : val_main_v30 (F := Ideal) i = RowSpec.w1 := (val_main_v30_apply i).trans rfl
theorem c_v39 (i : S8x4096x1024.Idx) : val_main_v39 (F := Ideal) i = RowSpec.w1 := (val_main_v39_apply i).trans rfl
theorem c_v41 (i : S8x4096x1024.Idx) : val_main_v41 (F := Ideal) i = RowSpec.w1 := (val_main_v41_apply i).trans rfl
theorem c_v48 (i : S8x4096x1.Idx) : val_main_v48 (F := Ideal) i = RowSpec.w1024 := (val_main_v48_apply i).trans rfl
theorem c_v51 (i : S8x4096x1.Idx) : val_main_v51 (F := Ideal) i = RowSpec.wHalf := (val_main_v51_apply i).trans rfl
theorem c_v53 (i : S8x4096x1.Idx) : val_main_v53 (F := Ideal) i = RowSpec.w1 := (val_main_v53_apply i).trans rfl
theorem c_v57 (i : S8x4096x1.Idx) : val_main_v57 (F := Ideal) i = RowSpec.wThr := (val_main_v57_apply i).trans rfl
theorem c_v60 (i : S8x4096x1.Idx) : val_main_v60 (F := Ideal) i = RowSpec.w9 := (val_main_v60_apply i).trans rfl
theorem c_v62 (i : S8x4096x1.Idx) : val_main_v62 (F := Ideal) i = RowSpec.w1 := (val_main_v62_apply i).trans rfl

/-- The sums' initial value, the zero word, is 0. -/
theorem c_zero0 (j : S_.Idx) : val_main_call0_cst (F := Ideal) j = 0 :=
  (val_main_call0_cst_apply j).trans Ideal.ofBits_zero_f32
theorem c_zero10 (j : S_.Idx) : val_main_cst_10 (F := Ideal) j = 0 :=
  (val_main_cst_10_apply j).trans Ideal.ofBits_zero_f32

/-! ## The low-rank coordinates and their length -/

/-- The first contraction at row (b, s), coordinate r, is the row's r-th low-rank coordinate. -/
theorem proj_at (r : Fin 16) :
    val_main_v0 (F := Ideal) x0 x2 (ix3 b s r) = RowSpec.proj (fun k => x0 (ix3 b s k)) (fun k r => x2 (ix2 k r)) r := by
  rw [val_main_v0_apply]
  unfold RowSpec.proj
  refine Finset.sum_congr rfl fun k _ => ?_
  have el : lidx_main_v0 (ix3 b s r) k = ix3 b s k :=
    funext fun a => Fin.ext (by match a with | ⟨0, _⟩ => rfl | ⟨1, _⟩ => rfl | ⟨2, _⟩ => rfl)
  have er : ridx_main_v0 (ix3 b s r) k = ix2 k r :=
    funext fun a => Fin.ext (by match a with | ⟨0, _⟩ => rfl | ⟨1, _⟩ => rfl)
  rw [el, er]

/-- The sum of the squares of the row's low-rank coordinates. -/
theorem sumsq_at :
    val_main_call0_v1 (F := Ideal) x0 x2 (ix2 b s)
      = ∑ r : Fin 16, RowSpec.proj (fun k => x0 (ix3 b s k)) (fun k r => x2 (ix2 k r)) r * RowSpec.proj (fun k => x0 (ix3 b s k)) (fun k r => x2 (ix2 k r)) r := by
  rw [val_main_call0_v1_apply, c_zero0, zero_add]
  refine Finset.sum_congr rfl fun r _ => ?_
  have e : idx_main_call0_v1 (ix2 b s) r = ix3 b s r :=
    funext fun a => Fin.ext (by match a with | ⟨0, _⟩ => rfl | ⟨1, _⟩ => rfl | ⟨2, _⟩ => rfl)
  rw [e, val_main_call0_v0_apply, proj_at]
  rfl

/-- One over one plus the length of the low-rank coordinates. -/
theorem shrink_at :
    val_main_v5 (F := Ideal) x0 x2 (ix3 b s (0 : Fin 1)) = RowSpec.shrink (fun k => x0 (ix3 b s k)) (fun k r => x2 (ix2 k r)) := by
  rw [val_main_v5_apply, val_main_v3_apply, val_main_v1_apply, c_v4, c_v2, val_main_call0_v2_apply]
  have e : idx_main_call0_v2 (ix3 b s (0 : Fin 1)) = ix2 b s :=
    funext fun a => Fin.ext (by match a with | ⟨0, _⟩ => rfl | ⟨1, _⟩ => rfl)
  rw [e, sumsq_at]
  rfl

/-- The squared coordinate times the shrink factor. -/
theorem scaled_at (r : Fin 16) :
    val_main_v8 (F := Ideal) x0 x2 (ix3 b s r)
      = RowSpec.proj (fun k => x0 (ix3 b s k)) (fun k r => x2 (ix2 k r)) r * RowSpec.proj (fun k => x0 (ix3 b s k)) (fun k r => x2 (ix2 k r)) r * RowSpec.shrink (fun k => x0 (ix3 b s k)) (fun k r => x2 (ix2 k r)) := by
  rw [val_main_v8_apply, val_main_v6_apply, val_main_v7_apply, proj_at]
  have e : idx_main_v7 (ix3 b s r) = ix3 b s (0 : Fin 1) :=
    funext fun a => Fin.ext (by match a with | ⟨0, _⟩ => rfl | ⟨1, _⟩ => rfl | ⟨2, _⟩ => rfl)
  rw [e, shrink_at]
  rfl

/-- The second contraction at row (b, s), lane d, is the quadratic form lifted to lane d. -/
theorem quad_at (d : Fin 1024) :
    val_main_v9 (F := Ideal) x0 x2 x3 (ix3 b s d) = RowSpec.quad (fun k => x0 (ix3 b s k)) (fun k r => x2 (ix2 k r)) (fun e r => x3 (ix2 e r)) d := by
  rw [val_main_v9_apply]
  unfold RowSpec.quad
  refine Finset.sum_congr rfl fun r _ => ?_
  have el : lidx_main_v9 (ix3 b s d) r = ix3 b s r :=
    funext fun a => Fin.ext (by match a with | ⟨0, _⟩ => rfl | ⟨1, _⟩ => rfl | ⟨2, _⟩ => rfl)
  have er : ridx_main_v9 (ix3 b s d) r = ix2 d r :=
    funext fun a => Fin.ext (by match a with | ⟨0, _⟩ => rfl | ⟨1, _⟩ => rfl)
  rw [el, er, scaled_at]

/-! ## The potential and the clamped form -/

/-- The sigmoid of the row of positions against the one row of the potential's weights. -/
theorem potential_at :
    val_main_v16 (F := Ideal) x1 x4 (ix3 b s (0 : Fin 1)) = RowSpec.potential (fun k => x1 (ix3 b s k)) (fun k => x4 (ix2 (0 : Fin 1) k)) := by
  rw [val_main_v16_apply, val_main_v14_apply, val_main_v12_apply, val_main_v11_apply, c_v15, c_v13,
    val_main_v10_apply]
  have e : ∀ k : Fin 1024, x1 (lidx_main_v10 (ix3 b s (0 : Fin 1)) k) * x4 (ridx_main_v10 (ix3 b s (0 : Fin 1)) k)
      = x1 (ix3 b s k) * x4 (ix2 (0 : Fin 1) k) := fun k => by
    have el : lidx_main_v10 (ix3 b s (0 : Fin 1)) k = ix3 b s k :=
      funext fun a => Fin.ext (by match a with | ⟨0, _⟩ => rfl | ⟨1, _⟩ => rfl | ⟨2, _⟩ => rfl)
    have er : ridx_main_v10 (ix3 b s (0 : Fin 1)) k = ix2 (0 : Fin 1) k :=
      funext fun a => Fin.ext (by match a with | ⟨0, _⟩ => rfl | ⟨1, _⟩ => rfl)
    rw [el, er]
  rw [Finset.sum_congr rfl fun k _ => e k]
  exact RowSpec.sigmoid_spelt _

/-- The lifted form times one plus the potential, clamped between the two bounds. -/
theorem clamped_at (d : Fin 1024) :
    val_main_v21 (F := Ideal) x0 x1 x2 x3 x4 (ix3 b s d)
      = RowSpec.clamped (fun k => x0 (ix3 b s k)) (fun k => x1 (ix3 b s k)) (fun k r => x2 (ix2 k r)) (fun e r => x3 (ix2 e r)) (fun k => x4 (ix2 (0 : Fin 1) k)) d := by
  rw [val_main_v21_apply, val_main_call1_v2_apply, val_main_v20_apply, c_hi, c_lo, quad_at, val_main_v19_apply]
  have e : idx_main_v19 (ix3 b s d) = ix3 b s (0 : Fin 1) :=
    funext fun a => Fin.ext (by match a with | ⟨0, _⟩ => rfl | ⟨1, _⟩ => rfl | ⟨2, _⟩ => rfl)
  rw [e, val_main_v18_apply, c_v17, potential_at]
  rfl

/-! ## The two sigmoid gates -/

/-- The gate: the sigmoid of lane d's row of the gate weights against the positions, plus the lane's bias. -/
theorem gate_at (d : Fin 1024) :
    val_main_v31 (F := Ideal) x1 x5 x6 (ix3 b s d) = RowSpec.gateOf (fun k => x1 (ix3 b s k)) (fun e k => x5 (ix2 e k)) (fun e => x6 (ix1 e)) d := by
  rw [val_main_v31_apply, val_main_v29_apply, val_main_v27_apply, val_main_v26_apply, val_main_v25_apply, c_v30,
    c_v28, val_main_v24_apply, val_main_v23_apply, val_main_v22_apply]
  have e : ∀ k : Fin 1024, x1 (lidx_main_v22 (ix3 b s d) k) * x5 (ridx_main_v22 (ix3 b s d) k)
      = x1 (ix3 b s k) * x5 (ix2 d k) := fun k => by
    have el : lidx_main_v22 (ix3 b s d) k = ix3 b s k :=
      funext fun a => Fin.ext (by match a with | ⟨0, _⟩ => rfl | ⟨1, _⟩ => rfl | ⟨2, _⟩ => rfl)
    have er : ridx_main_v22 (ix3 b s d) k = ix2 d k :=
      funext fun a => Fin.ext (by match a with | ⟨0, _⟩ => rfl | ⟨1, _⟩ => rfl)
    rw [el, er]
  have eb : idx_main_v23 (idx_main_v24 (ix3 b s d)) = ix1 d :=
    funext fun a => Fin.ext (by match a with | ⟨0, _⟩ => rfl)
  rw [Finset.sum_congr rfl fun k _ => e k, eb]
  exact RowSpec.sigmoid_spelt _

/-- The friction: the same with the friction weights and bias. -/
theorem friction_at (d : Fin 1024) :
    val_main_v42 (F := Ideal) x1 x7 x8 (ix3 b s d) = RowSpec.gateOf (fun k => x1 (ix3 b s k)) (fun e k => x7 (ix2 e k)) (fun e => x8 (ix1 e)) d := by
  rw [val_main_v42_apply, val_main_v40_apply, val_main_v38_apply, val_main_v37_apply, val_main_v36_apply, c_v41,
    c_v39, val_main_v35_apply, val_main_v34_apply, val_main_v33_apply]
  have e : ∀ k : Fin 1024, x1 (lidx_main_v33 (ix3 b s d) k) * x7 (ridx_main_v33 (ix3 b s d) k)
      = x1 (ix3 b s k) * x7 (ix2 d k) := fun k => by
    have el : lidx_main_v33 (ix3 b s d) k = ix3 b s k :=
      funext fun a => Fin.ext (by match a with | ⟨0, _⟩ => rfl | ⟨1, _⟩ => rfl | ⟨2, _⟩ => rfl)
    have er : ridx_main_v33 (ix3 b s d) k = ix2 d k :=
      funext fun a => Fin.ext (by match a with | ⟨0, _⟩ => rfl | ⟨1, _⟩ => rfl)
    rw [el, er]
  have eb : idx_main_v34 (idx_main_v35 (ix3 b s d)) = ix1 d :=
    funext fun a => Fin.ext (by match a with | ⟨0, _⟩ => rfl)
  rw [Finset.sum_congr rfl fun k _ => e k, eb]
  exact RowSpec.sigmoid_spelt _

/-! ## The energy and the boost -/

/-- The hyperbolic tangent of the mean square of the row of velocities. -/
theorem energy_at :
    val_main_v50 (F := Ideal) x0 (ix3 b s (0 : Fin 1)) = RowSpec.energy (fun k => x0 (ix3 b s k)) := by
  rw [val_main_v50_apply, val_main_v49_apply, c_v48, val_main_v47_apply]
  have e : idx_main_v47 (ix3 b s (0 : Fin 1)) = ix2 b s :=
    funext fun a => Fin.ext (by match a with | ⟨0, _⟩ => rfl | ⟨1, _⟩ => rfl)
  rw [e, val_main_v46_apply, c_zero10, zero_add]
  have ek : ∀ k : Fin 1024, val_main_v45 (F := Ideal) x0 (idx_main_v46 (ix2 b s) k)
      = x0 (ix3 b s k) * x0 (ix3 b s k) := fun k => by
    have el : idx_main_v46 (ix2 b s) k = ix3 b s k :=
      funext fun a => Fin.ext (by match a with | ⟨0, _⟩ => rfl | ⟨1, _⟩ => rfl | ⟨2, _⟩ => rfl)
    rw [el, val_main_v45_apply]
    rfl
  rw [Finset.sum_congr rfl fun k _ => ek k]
  rfl

/-- One plus nine times the indicator that the potential exceeds the threshold. -/
theorem boost_at :
    val_main_v63 (F := Ideal) x1 x4 (ix3 b s (0 : Fin 1)) = RowSpec.boost (fun k => x1 (ix3 b s k)) (fun k => x4 (ix2 (0 : Fin 1) k)) := by
  rw [val_main_v63_apply, val_main_v61_apply, val_main_v59_apply, val_main_v58_apply, c_v62, c_v60, c_v57,
    potential_at]
  rfl

/-! ## The result -/

/-- The reference's result at batch entry b, position s, lane d is lane d of the row function of row (b, s). -/
theorem reference_at (d : Fin 1024) :
    val_main_v65 (F := Ideal) x0 x1 x2 x3 x4 x5 x6 x7 x8 (ix3 b s d)
      = RowSpec.rowAt x0 x1 x2 x3 x4 x5 x6 x7 x8 b s d := by
  have e55 : idx_main_v55 (ix3 b s d) = ix3 b s (0 : Fin 1) :=
    funext fun a => Fin.ext (by match a with | ⟨0, _⟩ => rfl | ⟨1, _⟩ => rfl | ⟨2, _⟩ => rfl)
  have e64 : idx_main_v64 (ix3 b s d) = ix3 b s (0 : Fin 1) :=
    funext fun a => Fin.ext (by match a with | ⟨0, _⟩ => rfl | ⟨1, _⟩ => rfl | ⟨2, _⟩ => rfl)
  rw [val_main_v65_apply, val_main_v56_apply, val_main_v44_apply, val_main_v32_apply, val_main_v43_apply,
    clamped_at, gate_at, friction_at, val_main_v55_apply, e55, val_main_v54_apply, val_main_v52_apply, c_v53, c_v51,
    energy_at, val_main_v64_apply, e64, boost_at]
  rfl

/-- The reference's whole result is the layer's row-by-row description. -/
theorem reference_is_whole
    (x0 x1 : (⟨Cert.ReferenceIdeal.S8x4096x1024, .f32⟩ : BufTy).Contents (Elt Ideal))
    (x2 x3 : (⟨Cert.ReferenceIdeal.S1024x16, .f32⟩ : BufTy).Contents (Elt Ideal))
    (x4 : (⟨Cert.ReferenceIdeal.S1x1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal)) :
    Cert.ReferenceIdeal.Read.val_main_v65 (F := Ideal) x0 x1 x2 x3 x4 x5 x6 x7 x8
      = Cert.RowSpec.whole x0 x1 x2 x3 x4 x5 x6 x7 x8 := by
  funext i
  obtain ⟨b, s, d, rfl⟩ : ∃ (b : Fin 8) (s : Fin 4096) (d : Fin 1024), i = ix3 b s d := ⟨i 0, i 1, i 2, eq_ix3 i⟩
  rw [RowSpec.whole_ix3]
  exact reference_at x0 x1 x2 x3 x4 x5 x6 x7 x8 b s d

end Cert.RefRows

end
-- ==== Proof.lean ====
/-
  The kernel and its reference compute the same array.

  The layer maps each row (one position of one batch entry) of velocities v and positions x, with nine weight arrays in
  all, to a row of the result: a low-rank quadratic form of v, scaled by one plus a sigmoid potential of x and clamped,
  gated by one sigmoid of x and damped by another times v, then scaled by a factor of v's mean square and by ten where
  the potential exceeds a threshold (Proof/RowSpec.lean states it as one function of one row).

  The kernel program flattens the 8 x 4096 rows, hands blocks of 512 rows to a grid of 64 points, computes each
  block's result with three matrix products and three row sums on the re-laid weights, and un-flattens; at the exact
  extended reals its result array is that row function of the argument arrays, row by row (Proof/KernelRow.lean: one
  stored entry; Proof/KernelEntry.lean: the re-laid arrays; Proof/KernelBlocks.lean: blocks to the flat array;
  Proof/KernelValue.lean: the un-flattening and the run).  The reference computes the same quantities array by array
  in the same order of operands, its sigmoids written out as 1 / (1 + exp (-t)); read at one index it is the same row
  function (Proof/RefRows.lean).  No law of arithmetic beyond 0 + t = t is used, so the inputs' finiteness is never
  opened.  Both programs leave their arguments as launched; the idealized kernel is the kernel's own text read at the
  extended reals, so there is nothing to preserve beyond that.
-/
import proofs.«100001_j2370821948216_2_alg».proof.Defs
import proofs.«100001_j2370821948216_2_alg».proof.Proof.Gen.Kernel
import proofs.«100001_j2370821948216_2_alg».proof.Proof.Gen.Kernel.Skeleton
import proofs.«100001_j2370821948216_2_alg».proof.Proof.Gen.Kernel.Launch
import proofs.«100001_j2370821948216_2_alg».proof.Proof.Gen.Kernel.Points
import proofs.«100001_j2370821948216_2_alg».proof.Proof.Gen.Kernel.Frame
import proofs.«100001_j2370821948216_2_alg».proof.Proof.Gen.KernelIdeal
import proofs.«100001_j2370821948216_2_alg».proof.Proof.Gen.KernelIdeal.Skeleton
import proofs.«100001_j2370821948216_2_alg».proof.Proof.Gen.KernelIdeal.Launch
import proofs.«100001_j2370821948216_2_alg».proof.Proof.Gen.KernelIdeal.Points
import proofs.«100001_j2370821948216_2_alg».proof.Proof.Gen.KernelIdeal.Frame
import proofs.«100001_j2370821948216_2_alg».proof.Proof.Gen.ReferenceIdeal
import proofs.«100001_j2370821948216_2_alg».proof.Proof.Gen.ReferenceIdeal.Run
import proofs.«100001_j2370821948216_2_alg».proof.Proof.Gen.ReferenceIdeal.Read
import proofs.«100001_j2370821948216_2_alg».proof.Proof.Gen.Pre_finite_inputs
import proofs.«100001_j2370821948216_2_alg».proof.Proof.KernelValue
import proofs.«100001_j2370821948216_2_alg».proof.Proof.RefRows
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the layer's row-by-row description of those
    arguments as their result: the kernel program by its run, the reference by its run read index by index. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.RefRows.reference_is_whole,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
